-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  natLt_1_32 : 1 < 32
  broadcasts_S512x1_S512x1024 : S512x1.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1x16384x1024 : Shape := ⟨3, ![1, 16384, 1024]⟩
abbrev S4x16384x1024 : Shape := ⟨3, ![4, 16384, 1024]⟩
abbrev S_ : Shape := ⟨0, ![]⟩
abbrev S4x16384 : Shape := ⟨2, ![4, 16384]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S4x16384x1024, .f32⟩
  | .hbm, ⟨9, _⟩ => ⟨S_, .f32⟩
  | .hbm, ⟨10, _⟩ => ⟨S16384x1024, .f32⟩
  | .hbm, ⟨11, _⟩ => ⟨S_, .f32⟩
  | .hbm, ⟨12, _⟩ => ⟨S4x16384, .f32⟩
  | .hbm, ⟨13, _⟩ => ⟨S_, .f32⟩
  | .hbm, ⟨14, _⟩ => ⟨S4x16384, .f32⟩
  | .hbm, ⟨15, _⟩ => ⟨S4x16384, .i1⟩
  | .hbm, ⟨16, _⟩ => ⟨S4x16384, .i32⟩
  | .hbm, ⟨17, _⟩ => ⟨S_, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S16384x1024_S1x16384x1024_1_2 : S16384x1024.BroadcastsInDim S1x16384x1024 (![1, 2] : Fin 2 → Fin S1x16384x1024.rank)
  concatenates_S1x16384x1024_S1x16384x1024_S1x16384x1024_S1x16384x1024_S4x16384x1024_d0 : Shape.Concatenates [S1x16384x1024, S1x16384x1024, S1x16384x1024, S1x16384x1024] S4x16384x1024 0
  reducesTo_S4x16384x1024_S16384x1024_d0 : S4x16384x1024.ReducesTo [0] S16384x1024
  h_S_ : 0 < S_.numel
  reducesTo_S4x16384x1024_S4x16384_d2 : S4x16384x1024.ReducesTo [2] S4x16384
  bcast_S_S4x16384 : S_.BroadcastsInDim S4x16384 (![] : Fin 0 → Fin S4x16384.rank)
  natLt_1_32 : 1 < 32
  reducesTo_S4x16384_S16384_d0 : S4x16384.ReducesTo [0] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)

variable [Facts₀]

class Facts : Prop extends Facts₀ where

variable [Facts]
-- ==== Proof.FusionSpec.lean ====
/-
  What both programs compute, as one function of the four argument arrays over the extended reals.

  Each argument is a 16384 x 1024 array; row `r` of each has a sum over its 1024 entries. For a row, count how many of
  the four sums are exactly zero; the row's factor is that count plus one (a row with no vanishing sum keeps the factor
  one). The result at `(r, j)` is the sum of the four arrays' entries at `(r, j)` times the factor of row `r`.

  The kernel forms the count in floats — each comparison's bit, widened to 32 bits and converted, is `0.0` or `1.0`, the
  four are added, and `where(count > 0, count + 1, 1)` picks the factor. The reference forms it in 32-bit integers —
  the bits are added as integers, one is added, the integer is converted, and the same `where` picks. Since
  `where(n > 0, n + 1, 1) = n + 1` for every natural `n`, and a count of at most four neither wraps a 32-bit integer nor
  leaves the exactly representable reals, both are the natural number `count + 1` read as a real. Nothing here needs the
  inputs to be finite: only commutativity and associativity of `+` on the extended reals are used.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost

noncomputable section

namespace Cert.Fusion

open Idealize.ShloMosaic Idealize.ShloMosaic.ValueIdx

/-- `1` when the extended real is zero, `0` otherwise. -/
def isZero (s : EReal) : ℕ := if s = 0 then 1 else 0

theorem isZero_le_one (s : EReal) : isZero s ≤ 1 := by unfold isZero; split <;> omega

/-- A row's factor from its four sums: one more than the number of sums that vanish, as a real. -/
def scale (s0 s1 s2 s3 : EReal) : EReal :=
  (((isZero s0 + isZero s1 + isZero s2 + isZero s3 + 1 : ℕ) : ℝ) : EReal)

/-- The comparison of an extended real with the zero pattern, widened to 32 bits, is the word `isZero`. -/
theorem eqZero_word (s : EReal) :
    (Ideal.cmp .oeq s (Ideal.ofBits .f32 0x00000000#32)).setWidth 32 = BitVec.ofNat 32 (isZero s) := by
  rw [Ideal.ofBits_zero_f32]
  unfold Ideal.cmp isZero
  by_cases h : s = 0
  · simp [h]
  · simp [h]

/-- … and read as a signed integer and converted, it is `isZero` as a real. -/
theorem eqZero_real (s : EReal) :
    ((((Ideal.cmp .oeq s (Ideal.ofBits .f32 0x00000000#32)).setWidth 32 : BitVec 32).toInt : ℝ) : EReal)
      = (((isZero s : ℕ) : ℝ) : EReal) := by
  rw [eqZero_word]
  unfold isZero
  by_cases h : s = 0
  · simp [h]
  · simp [h]

/-- THE KERNEL'S FACTOR. The four converted bits added as floats, compared with zero, and `where`: the factor. -/
theorem floatCount_scale (s0 s1 s2 s3 : EReal) (z0 z1 z2 z3 : EReal)
    (h0 : z0 = (((isZero s0 : ℕ) : ℝ) : EReal)) (h1 : z1 = (((isZero s1 : ℕ) : ℝ) : EReal))
    (h2 : z2 = (((isZero s2 : ℕ) : ℝ) : EReal)) (h3 : z3 = (((isZero s3 : ℕ) : ℝ) : EReal)) :
    Scalar.select (Ideal.cmp .ogt (z0 + z1 + z2 + z3) (Ideal.ofBits .f32 0x00000000#32))
        (z0 + z1 + z2 + z3 + Ideal.ofBits .f32 0x3F800000#32) (Ideal.ofBits .f32 0x3F800000#32)
      = scale s0 s1 s2 s3 := by
  subst h0 h1 h2 h3
  rw [Ideal.ofBits_zero_f32, Ideal.ofBits_one_f32]
  have hsum : ((((isZero s0 : ℕ) : ℝ) : EReal) + (((isZero s1 : ℕ) : ℝ) : EReal) + (((isZero s2 : ℕ) : ℝ) : EReal)
      + (((isZero s3 : ℕ) : ℝ) : EReal)) = (((isZero s0 + isZero s1 + isZero s2 + isZero s3 : ℕ) : ℝ) : EReal) := by
    push_cast; rfl
  rw [hsum]
  unfold scale
  generalize isZero s0 + isZero s1 + isZero s2 + isZero s3 = n
  unfold Ideal.cmp Scalar.select
  rcases Nat.eq_zero_or_pos n with hn | hn
  · subst hn; simp
  · simp [hn]

/-- A fold of 32-bit additions over four terms is their sum after the start value. -/
theorem fold_addi_fin4 (b : BitVec 32) (g : Fin 4 → BitVec 32) :
    (Finset.univ : Finset (Fin 4)).fold IntOp.addi b g = b + (g 0 + g 1 + g 2 + g 3) := by
  simp only [Fin.univ_succ, Finset.fold_cons, Finset.fold_map, Finset.univ_unique, Finset.fold_singleton]
  show IntOp.addi (g 0) (IntOp.addi (g 1) (IntOp.addi (g 2) (IntOp.addi (g 3) b))) = _
  simp only [IntOp.addi_eq_add]
  ac_rfl

/-- THE REFERENCE'S FACTOR. The four bits added as 32-bit integers (a count of at most four: no wrap), compared with zero as
    signed integers, one added and the integer converted, and `where`: the factor. -/
theorem intCount_scale (s0 s1 s2 s3 : EReal) (n : BitVec 32)
    (hn : n = BitVec.ofNat 32 (isZero s0 + isZero s1 + isZero s2 + isZero s3)) :
    Scalar.select (IntOp.cmpi .sgt n 0#32) ((((IntOp.addi n 1#32).toInt : ℝ) : EReal)) (Ideal.ofBits .f32 0x3F800000#32)
      = scale s0 s1 s2 s3 := by
  subst hn
  have hk : isZero s0 + isZero s1 + isZero s2 + isZero s3 ≤ 4 := by
    have := isZero_le_one s0; have := isZero_le_one s1; have := isZero_le_one s2; have := isZero_le_one s3; omega
  unfold scale
  generalize isZero s0 + isZero s1 + isZero s2 + isZero s3 = k at hk ⊢
  rw [Ideal.ofBits_one_f32]
  interval_cases k <;> simp [IntOp.cmpi, IntOp.addi, Scalar.select] <;> norm_num

/-! ## The function -/

/-- The arguments' and the result's shape. -/
abbrev Arr : Shape := ⟨2, ![16384, 1024]⟩

/-- The sum of row `r` of an array over its 1024 entries. -/
def rowSum (x : Arr.Idx → EReal) (r : Fin 16384) : EReal := ∑ k : Fin 1024, x (ix2 r k)

/-- The result: at `(r, j)` the four arrays' entries added, times the factor of row `r`. -/
def G (x0 x1 x2 x3 : Arr.Idx → EReal) : Arr.Idx → EReal := fun i =>
  (x0 i + x1 i + x2 i + x3 i) * scale (rowSum x0 (i 0)) (rowSum x1 (i 0)) (rowSum x2 (i 0)) (rowSum x3 (i 0))

end Cert.Fusion

end
-- ==== Proof.KernelPoint.lean ====
/-
  One grid point of the kernel. The body loads the four 512 x 1024 blocks whole, adds them, sums each block's rows over
  the 1024 lanes, turns each row sum's comparison with zero into `0.0` or `1.0`, adds those four, picks
  `where(count > 0, count + 1, 1)` and multiplies the added blocks by that column broadcast along the lanes. The block it
  leaves (`E4` of the four loads, in the generated value module imported here) is read here at a block index `y`:
  when each load is a block of an array `x` — `P z = x (e z)` for an embedding `e` of block indices that shifts the row by a
  constant and keeps the lane — a block's lane sum at row `y 0` is the array's row sum at row `e y 0` (the whole feature axis
  is inside the block), and so the block's entry at `y` is the function `G` of the four arrays at `e y`.
-/
import proofs.«181110_j63462436765886_2_alg».proof.Proof.KernelValuePatched
import proofs.«181110_j63462436765886_2_alg».proof.Proof.FusionSpec
import Idealize.ShloMosaic.PureOps.Ideal.Laws
import Idealize.ShloMosaic.Lib.ValueIdx

noncomputable section

namespace Cert.Fusion.Kernel

open Cert.KernelIdeal Cert.KernelIdeal.Gen Cert.KernelIdeal.ValueP Idealize.ShloMosaic Idealize.ShloMosaic.ValueIdx Cert.Fusion

/-- A block's sum over its lanes at row `q`, when the block is a block of the array `x` through `e`, is the array's row sum
    at the row `e` sends that row to: the 1024 lanes of a block row are the 1024 entries of the array's row. -/
theorem laneSum_block (P : Vec Ideal S512x1024 .f32) (x : Arr.Idx → EReal) (e : S512x1024.Idx → Arr.Idx) (off : ℕ)
    (he0 : ∀ z, (e z 0).val = off + (z 0).val) (he1 : ∀ z, (e z 1).val = (z 1).val) (hP : ∀ z, P z = x (e z))
    (y : S512x1024.Idx) (q : S512.Idx) (hq : (q 0).val = (y 0).val) :
    (multiReduction (F := Ideal) .add [1] S512 P 0x00000000#32 reduces_S512x1024_S512 (.inl rfl) rfl) q = rowSum x (e y 0) := by
  refine (Ideal.multiReduction_add_single P 0x00000000#32 reduces_S512x1024_S512 (.inl rfl) rfl q).trans ?_
  unfold rowSum
  refine Finset.sum_congr rfl fun k _ => ?_
  rw [hP]
  refine congrArg x (funext fun a => Fin.ext ?_)
  match a with
  | ⟨0, _⟩ =>
    show (e (reduces_S512x1024_S512.lift q k) 0).val = (e y 0).val
    rw [he0, he0]
    exact congrArg (off + ·) hq
  | ⟨1, _⟩ =>
    show (e (reduces_S512x1024_S512.lift q k) 1).val = k.val
    rw [he1]
    rfl

/-- THE BLOCK AT AN INDEX. With the four loads blocks of four arrays through one embedding `e` (row shifted by a constant,
    lane kept), what the body leaves at block index `y` is `G` of the arrays at `e y`. -/
theorem block_value (P0 P1 P2 P3 : Vec Ideal S512x1024 .f32) (x0 x1 x2 x3 : Arr.Idx → EReal)
    (e : S512x1024.Idx → Arr.Idx) (off : ℕ)
    (he0 : ∀ z, (e z 0).val = off + (z 0).val) (he1 : ∀ z, (e z 1).val = (z 1).val)
    (h0 : ∀ z, P0 z = x0 (e z)) (h1 : ∀ z, P1 z = x1 (e z)) (h2 : ∀ z, P2 z = x2 (e z)) (h3 : ∀ z, P3 z = x3 (e z))
    (y : S512x1024.Idx) :
    E4 P0 P1 P2 P3 y = G x0 x1 x2 x3 (e y) := by
  have i0 : ix4_0 y = y := funext fun a => Fin.ext (by match a with | ⟨0, _⟩ => rfl | ⟨1, _⟩ => rfl)
  have i1 : ix4_1 y = y := funext fun a => Fin.ext (by match a with | ⟨0, _⟩ => rfl | ⟨1, _⟩ => rfl)
  have i2 : ix4_2 y = y := funext fun a => Fin.ext (by match a with | ⟨0, _⟩ => rfl | ⟨1, _⟩ => rfl)
  have i3 : ix4_3 y = y := funext fun a => Fin.ext (by match a with | ⟨0, _⟩ => rfl | ⟨1, _⟩ => rfl)
  have r4 : (multiReduction (F := Ideal) .add [1] S512 P0 0x00000000#32 reduces_S512x1024_S512 (.inl rfl) rfl) (ix4_4 y) = rowSum x0 (e y 0) := laneSum_block P0 x0 e off he0 he1 h0 y (ix4_4 y) rfl
  have r5 : (multiReduction (F := Ideal) .add [1] S512 P1 0x00000000#32 reduces_S512x1024_S512 (.inl rfl) rfl) (ix4_5 y) = rowSum x1 (e y 0) := laneSum_block P1 x1 e off he0 he1 h1 y (ix4_5 y) rfl
  have r6 : (multiReduction (F := Ideal) .add [1] S512 P2 0x00000000#32 reduces_S512x1024_S512 (.inl rfl) rfl) (ix4_6 y) = rowSum x2 (e y 0) := laneSum_block P2 x2 e off he0 he1 h2 y (ix4_6 y) rfl
  have r7 : (multiReduction (F := Ideal) .add [1] S512 P3 0x00000000#32 reduces_S512x1024_S512 (.inl rfl) rfl) (ix4_7 y) = rowSum x3 (e y 0) := laneSum_block P3 x3 e off he0 he1 h3 y (ix4_7 y) rfl
  have key := floatCount_scale (rowSum x0 (e y 0)) (rowSum x1 (e y 0)) (rowSum x2 (e y 0)) (rowSum x3 (e y 0)) _ _ _ _
    (eqZero_real _) (eqZero_real _) (eqZero_real _) (eqZero_real _)
  unfold E4
  rw [i0, i1, i2, i3, r4, r5, r6, r7, h0 y, h1 y, h2 y, h3 y]
  exact congrArg (fun s => (x0 (e y) + x1 (e y) + x2 (e y) + x3 (e y)) * s) key

/-- The body's loads and its store all start at the block's origin. -/
theorem origin : (![0, 0] : Fin 2 → Nat) = fun _ => 0 := funext fun a => by fin_cases a <;> rfl

/-- The body loads each block whole and its one store covers the output block, so what it leaves in the output buffer is
    `E4` of the four loaded blocks, index by index. -/
theorem out_apply (P0 P1 P2 P3 : Vec Ideal S512x1024 .f32) (y : S512x1024.Idx) :
    out0_4 P0 P1 P2 P3 y = E4 P0 P1 P2 P3 y := by
  unfold out0_4
  simp only [View.ld_unit_zero (S := S512x1024) origin]
  exact canon4_eq P0 P1 P2 P3 y

end Cert.Fusion.Kernel

end
-- ==== Proof.KernelArray.lean ====
/-
  From blocks to the array. The grid has 32 points; at point `t` every window — the four inputs and the output — holds
  block `(t, 0)` of its array: rows `512 t … 512 t + 511`, all 1024 lanes. So each input block is its array read through
  the output's block embedding, what point `t` writes back is block `t` of `G` of the four argument arrays
  (`block_value`), the 32 blocks tile the 16384 rows (row `r` lies in block `r / 512`), and the output array after the run
  is `G` of the arguments, which the run leaves unchanged.
-/
import proofs.«181110_j63462436765886_2_alg».proof.Proof.KernelPoint
import Idealize.ShloMosaic.Lib.Pipeline.Value

noncomputable section

namespace Cert.Fusion.Kernel

open Cert.KernelIdeal Cert.KernelIdeal.Gen Cert.KernelIdeal.ValueP Idealize.ShloMosaic Idealize.ShloMosaic.TcCoe Idealize.SL.Sem Cert.Fusion
open Idealize.ShloMosaic.Pipeline (Dat)

variable (m : (ℓ : Loc nD τ sig) → Buf (Elt Ideal) ℓ) (ρ : Dev nD → PrngReg)

/-! The five printed index maps, each decided over the 32 grid points: a window's block index at point `t` is `(t, 0)`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

/-- The output block's embedding at point `t`: row `512 t + z₀`, lane `z₁`. -/
theorem outRow (t : Fin cfg0.N) (z : S512x1024.Idx) : ((((cfg0.win 4).blk t).view.emb z) 0).val = t.val * 512 + (z 0).val := by
  show win0_4.index t (0 : Fin 2) * 512 + 1 * (z 0).val = _
  rw [(idx4 t).1]; omega

theorem outLane (t : Fin cfg0.N) (z : S512x1024.Idx) : ((((cfg0.win 4).blk t).view.emb z) 1).val = (z 1).val := by
  show win0_4.index t (1 : Fin 2) * 1024 + 1 * (z 1).val = _
  rw [(idx4 t).2]; omega

/-! ## Each input block is its array read through the output's block embedding -/

theorem inBlock0 (c : Dev nD) (t : Fin cfg0.N) (z : S512x1024.Idx) :
    iblk m c 0 t z = V m c main_arg0 (((cfg0.win 4).blk t).view.emb z) := by
  show V m c main_arg0 (((cfg0.win 0).blk t).view.emb z) = _
  refine congrArg (V m c main_arg0) (funext fun a => Fin.ext ?_)
  match a with
  | ⟨0, _⟩ =>
    show win0_0.index t (0 : Fin 2) * 512 + 1 * (z 0).val = win0_4.index t (0 : Fin 2) * 512 + 1 * (z 0).val
    rw [(idx0 t).1, (idx4 t).1]
  | ⟨1, _⟩ =>
    show win0_0.index t (1 : Fin 2) * 1024 + 1 * (z 1).val = win0_4.index t (1 : Fin 2) * 1024 + 1 * (z 1).val
    rw [(idx0 t).2, (idx4 t).2]

theorem inBlock1 (c : Dev nD) (t : Fin cfg0.N) (z : S512x1024.Idx) :
    iblk m c 1 t z = V m c main_arg1 (((cfg0.win 4).blk t).view.emb z) := by
  show V m c main_arg1 (((cfg0.win 1).blk t).view.emb z) = _
  refine congrArg (V m c main_arg1) (funext fun a => Fin.ext ?_)
  match a with
  | ⟨0, _⟩ =>
    show win0_1.index t (0 : Fin 2) * 512 + 1 * (z 0).val = win0_4.index t (0 : Fin 2) * 512 + 1 * (z 0).val
    rw [(idx1 t).1, (idx4 t).1]
  | ⟨1, _⟩ =>
    show win0_1.index t (1 : Fin 2) * 1024 + 1 * (z 1).val = win0_4.index t (1 : Fin 2) * 1024 + 1 * (z 1).val
    rw [(idx1 t).2, (idx4 t).2]

theorem inBlock2 (c : Dev nD) (t : Fin cfg0.N) (z : S512x1024.Idx) :
    iblk m c 2 t z = V m c main_arg2 (((cfg0.win 4).blk t).view.emb z) := by
  show V m c main_arg2 (((cfg0.win 2).blk t).view.emb z) = _
  refine congrArg (V m c main_arg2) (funext fun a => Fin.ext ?_)
  match a with
  | ⟨0, _⟩ =>
    show win0_2.index t (0 : Fin 2) * 512 + 1 * (z 0).val = win0_4.index t (0 : Fin 2) * 512 + 1 * (z 0).val
    rw [(idx2 t).1, (idx4 t).1]
  | ⟨1, _⟩ =>
    show win0_2.index t (1 : Fin 2) * 1024 + 1 * (z 1).val = win0_4.index t (1 : Fin 2) * 1024 + 1 * (z 1).val
    rw [(idx2 t).2, (idx4 t).2]

theorem inBlock3 (c : Dev nD) (t : Fin cfg0.N) (z : S512x1024.Idx) :
    iblk m c 3 t z = V m c main_arg3 (((cfg0.win 4).blk t).view.emb z) := by
  show V m c main_arg3 (((cfg0.win 3).blk t).view.emb z) = _
  refine congrArg (V m c main_arg3) (funext fun a => Fin.ext ?_)
  match a with
  | ⟨0, _⟩ =>
    show win0_3.index t (0 : Fin 2) * 512 + 1 * (z 0).val = win0_4.index t (0 : Fin 2) * 512 + 1 * (z 0).val
    rw [(idx3 t).1, (idx4 t).1]
  | ⟨1, _⟩ =>
    show win0_3.index t (1 : Fin 2) * 1024 + 1 * (z 1).val = win0_4.index t (1 : Fin 2) * 1024 + 1 * (z 1).val
    rw [(idx3 t).2, (idx4 t).2]

/-! ## What a point writes back -/

/-- WHAT POINT `t` WRITES BACK is block `t` of `G` of the argument arrays as the region finds them. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [flushed4]
  funext z
  show out0_4 (iblk m c 0 t) (iblk m c 1 t) (iblk m c 2 t) (iblk m c 3 t) z
    = G (V m c main_arg0) (V m c main_arg1) (V m c main_arg2) (V m c main_arg3) (((cfg0.win 4).blk t).view.emb z)
  refine (out_apply (iblk m c 0 t) (iblk m c 1 t) (iblk m c 2 t) (iblk m c 3 t) z).trans ?_
  exact block_value (iblk m c 0 t) (iblk m c 1 t) (iblk m c 2 t) (iblk m c 3 t)
    (V m c main_arg0) (V m c main_arg1) (V m c main_arg2) (V m c main_arg3)
    (fun z => ((cfg0.win 4).blk t).view.emb z) (t.val * 512) (outRow t) (outLane t)
    (inBlock0 m c t) (inBlock1 m c t) (inBlock2 m c t) (inBlock3 m c t) z

/-! ## The blocks tile the array -/

/-- An index of the array is in point `t`'s block iff each coordinate is in the block's range on its axis. -/
theorem mem_blk (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0).slice (win0_4.rect t)).set ↔ _
  rw [View.set_slice_whole, Rect.mem_set_unit]
  exact Iff.rfl

/-- Every index of the array is in some point's block: row `r` in the block of point `r / 512`. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  have ht : (i 0).val / 512 < cfg0.N := by rw [hN]; omega
  refine ⟨⟨(i 0).val / 512, ht⟩, flush0_4 _, ?_⟩
  rw [mem_blk]
  have f := idx4 ⟨(i 0).val / 512, ht⟩
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [f.1]
    show (i 0).val / 512 * 512 ≤ (i 0).val ∧ (i 0).val < (i 0).val / 512 * 512 + 512
    omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    rw [f.2]
    omega

/-! ## The array after the run, and the run -/

/-- THE OUTPUT ARRAY after the run is `G` of the argument arrays. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 4
    (G (V m c main_arg0) (V m c main_arg1) (V m c main_arg2) (V m c main_arg3))
    (fun t _ => flushed_eq m c t) covered

/-- THE KERNEL'S RUN at the ideal values: every weakly fair execution terminates with the result array at `G` of the
    arguments and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Fusion.Kernel

end
-- ==== Proof.RefStages.lean ====
/-
  The reference, stage by stage. It stacks the four arrays along a new leading axis, sums the stack over that axis
  (the four entries at `(r, j)`) and over the last axis (each array's row sums, a 4 x 16384 table), compares the table
  with zero, adds the four bits of a row as 32-bit integers, and takes `where(count > 0, float(count + 1), 1.0)` as the
  row's factor, broadcast along the row. The stages the generated read module imported here reads one element at a
  time are chained here; the two it does not read are read first: the stack at `(a, r, k)` is array `a` at `(r, k)` (a
  join of four pieces of extent one along axis 0), and the integer sum over the four rows of the table is a fold of
  additions over `Fin 4`. The reference's last stage is then the function `G` of its four arguments.
-/
import proofs.«181110_j63462436765886_2_alg».proof.Proof.RefReadPatched
import proofs.«181110_j63462436765886_2_alg».proof.Proof.FusionSpec
import Idealize.ShloMosaic.Lib.Pipeline.Value
import Idealize.ShloMosaic.Lib.ValueIdx
import Idealize.ShloMosaic.PureOps.Reduce
import Idealize.ShloMosaic.PureOps.Ideal.Laws

noncomputable section

namespace Cert.Fusion.Ref

open Cert.ReferenceIdeal Cert.ReferenceIdeal.Gen Cert.ReferenceIdeal.ReadP Idealize.ShloMosaic Idealize.ShloMosaic.ValueIdx Cert.Fusion

/-- An argument array's contents at the ideal values. -/
abbrev X := (⟨S16384x1024, .f32⟩ : BufTy).Contents (Elt Ideal)

/-! ## The stack: piece `a` of the join along axis 0 is argument `a` -/

theorem stack0 (x0 x1 x2 x3 : X) (j : S4x16384x1024.Idx) (hj : (j 0).val = 0)
    (i : S16384x1024.Idx) (h1 : (i 0).val = (j 1).val) (h2 : (i 1).val = (j 2).val) :
    val_main_v4 (F := Ideal) x0 x1 x2 x3 j = x0 i := by
  unfold val_main_v4
  refine (concatenate_apply_piece (0 : Fin 3)
    [⟨S1x16384x1024, val_main_v0 (F := Ideal) x0⟩, ⟨S1x16384x1024, val_main_v1 (F := Ideal) x1⟩, ⟨S1x16384x1024, val_main_v2 (F := Ideal) x2⟩, ⟨S1x16384x1024, val_main_v3 (F := Ideal) x3⟩]
    _ j 0 (by show (0 : ℕ) < 4; omega) S1x16384x1024 (val_main_v0 (F := Ideal) x0) rfl rfl 0 rfl
    (ix3 (0 : Fin 1) (⟨(j 1).val, (j 1).isLt⟩ : Fin 16384) (⟨(j 2).val, (j 2).isLt⟩ : Fin 1024)) ?_ ?_).trans ?_
  · intro b hb
    match b with
    | ⟨0, _⟩ => exact absurd rfl hb
    | ⟨1, _⟩ => rfl
    | ⟨2, _⟩ => rfl
  · show 0 + 0 = (j 0).val
    omega
  · rw [val_main_v0_apply]
    exact congrArg x0 (funext fun a => Fin.ext (by match a with | ⟨0, _⟩ => exact h1.symm | ⟨1, _⟩ => exact h2.symm))

theorem stack1 (x0 x1 x2 x3 : X) (j : S4x16384x1024.Idx) (hj : (j 0).val = 1)
    (i : S16384x1024.Idx) (h1 : (i 0).val = (j 1).val) (h2 : (i 1).val = (j 2).val) :
    val_main_v4 (F := Ideal) x0 x1 x2 x3 j = x1 i := by
  unfold val_main_v4
  refine (concatenate_apply_piece (0 : Fin 3)
    [⟨S1x16384x1024, val_main_v0 (F := Ideal) x0⟩, ⟨S1x16384x1024, val_main_v1 (F := Ideal) x1⟩, ⟨S1x16384x1024, val_main_v2 (F := Ideal) x2⟩, ⟨S1x16384x1024, val_main_v3 (F := Ideal) x3⟩]
    _ j 1 (by show (1 : ℕ) < 4; omega) S1x16384x1024 (val_main_v1 (F := Ideal) x1) rfl rfl 1 rfl
    (ix3 (0 : Fin 1) (⟨(j 1).val, (j 1).isLt⟩ : Fin 16384) (⟨(j 2).val, (j 2).isLt⟩ : Fin 1024)) ?_ ?_).trans ?_
  · intro b hb
    match b with
    | ⟨0, _⟩ => exact absurd rfl hb
    | ⟨1, _⟩ => rfl
    | ⟨2, _⟩ => rfl
  · show 1 + 0 = (j 0).val
    omega
  · rw [val_main_v1_apply]
    exact congrArg x1 (funext fun a => Fin.ext (by match a with | ⟨0, _⟩ => exact h1.symm | ⟨1, _⟩ => exact h2.symm))

theorem stack2 (x0 x1 x2 x3 : X) (j : S4x16384x1024.Idx) (hj : (j 0).val = 2)
    (i : S16384x1024.Idx) (h1 : (i 0).val = (j 1).val) (h2 : (i 1).val = (j 2).val) :
    val_main_v4 (F := Ideal) x0 x1 x2 x3 j = x2 i := by
  unfold val_main_v4
  refine (concatenate_apply_piece (0 : Fin 3)
    [⟨S1x16384x1024, val_main_v0 (F := Ideal) x0⟩, ⟨S1x16384x1024, val_main_v1 (F := Ideal) x1⟩, ⟨S1x16384x1024, val_main_v2 (F := Ideal) x2⟩, ⟨S1x16384x1024, val_main_v3 (F := Ideal) x3⟩]
    _ j 2 (by show (2 : ℕ) < 4; omega) S1x16384x1024 (val_main_v2 (F := Ideal) x2) rfl rfl 2 rfl
    (ix3 (0 : Fin 1) (⟨(j 1).val, (j 1).isLt⟩ : Fin 16384) (⟨(j 2).val, (j 2).isLt⟩ : Fin 1024)) ?_ ?_).trans ?_
  · intro b hb
    match b with
    | ⟨0, _⟩ => exact absurd rfl hb
    | ⟨1, _⟩ => rfl
    | ⟨2, _⟩ => rfl
  · show 2 + 0 = (j 0).val
    omega
  · rw [val_main_v2_apply]
    exact congrArg x2 (funext fun a => Fin.ext (by match a with | ⟨0, _⟩ => exact h1.symm | ⟨1, _⟩ => exact h2.symm))

theorem stack3 (x0 x1 x2 x3 : X) (j : S4x16384x1024.Idx) (hj : (j 0).val = 3)
    (i : S16384x1024.Idx) (h1 : (i 0).val = (j 1).val) (h2 : (i 1).val = (j 2).val) :
    val_main_v4 (F := Ideal) x0 x1 x2 x3 j = x3 i := by
  unfold val_main_v4
  refine (concatenate_apply_piece (0 : Fin 3)
    [⟨S1x16384x1024, val_main_v0 (F := Ideal) x0⟩, ⟨S1x16384x1024, val_main_v1 (F := Ideal) x1⟩, ⟨S1x16384x1024, val_main_v2 (F := Ideal) x2⟩, ⟨S1x16384x1024, val_main_v3 (F := Ideal) x3⟩]
    _ j 3 (by show (3 : ℕ) < 4; omega) S1x16384x1024 (val_main_v3 (F := Ideal) x3) rfl rfl 3 rfl
    (ix3 (0 : Fin 1) (⟨(j 1).val, (j 1).isLt⟩ : Fin 16384) (⟨(j 2).val, (j 2).isLt⟩ : Fin 1024)) ?_ ?_).trans ?_
  · intro b hb
    match b with
    | ⟨0, _⟩ => exact absurd rfl hb
    | ⟨1, _⟩ => rfl
    | ⟨2, _⟩ => rfl
  · show 3 + 0 = (j 0).val
    omega
  · rw [val_main_v3_apply]
    exact congrArg x3 (funext fun a => Fin.ext (by match a with | ⟨0, _⟩ => exact h1.symm | ⟨1, _⟩ => exact h2.symm))

/-! ## The table of row sums: row `a` of it holds argument `a`'s row sums -/

theorem rowStage0 (x0 x1 x2 x3 : X) (r : Fin 16384) :
    val_main_v6 (F := Ideal) x0 x1 x2 x3 (ix2 (0 : Fin 4) r) = rowSum x0 r := by
  rw [val_main_v6_apply]
  show Ideal.ofBits .f32 0x00000000#32 + _ = _
  rw [Ideal.ofBits_zero_f32, zero_add]
  unfold rowSum
  refine Finset.sum_congr rfl fun k _ => ?_
  exact stack0 x0 x1 x2 x3 (idx_main_v6 (ix2 (0 : Fin 4) r) k) rfl (ix2 r k) rfl rfl

theorem rowStage1 (x0 x1 x2 x3 : X) (r : Fin 16384) :
    val_main_v6 (F := Ideal) x0 x1 x2 x3 (ix2 (1 : Fin 4) r) = rowSum x1 r := by
  rw [val_main_v6_apply]
  show Ideal.ofBits .f32 0x00000000#32 + _ = _
  rw [Ideal.ofBits_zero_f32, zero_add]
  unfold rowSum
  refine Finset.sum_congr rfl fun k _ => ?_
  exact stack1 x0 x1 x2 x3 (idx_main_v6 (ix2 (1 : Fin 4) r) k) rfl (ix2 r k) rfl rfl

theorem rowStage2 (x0 x1 x2 x3 : X) (r : Fin 16384) :
    val_main_v6 (F := Ideal) x0 x1 x2 x3 (ix2 (2 : Fin 4) r) = rowSum x2 r := by
  rw [val_main_v6_apply]
  show Ideal.ofBits .f32 0x00000000#32 + _ = _
  rw [Ideal.ofBits_zero_f32, zero_add]
  unfold rowSum
  refine Finset.sum_congr rfl fun k _ => ?_
  exact stack2 x0 x1 x2 x3 (idx_main_v6 (ix2 (2 : Fin 4) r) k) rfl (ix2 r k) rfl rfl

theorem rowStage3 (x0 x1 x2 x3 : X) (r : Fin 16384) :
    val_main_v6 (F := Ideal) x0 x1 x2 x3 (ix2 (3 : Fin 4) r) = rowSum x3 r := by
  rw [val_main_v6_apply]
  show Ideal.ofBits .f32 0x00000000#32 + _ = _
  rw [Ideal.ofBits_zero_f32, zero_add]
  unfold rowSum
  refine Finset.sum_congr rfl fun k _ => ?_
  exact stack3 x0 x1 x2 x3 (idx_main_v6 (ix2 (3 : Fin 4) r) k) rfl (ix2 r k) rfl rfl

/-! ## The four entries added -/

/-- The stack summed over its leading axis, from zero: the four arrays' entries at the index, added. -/
theorem entrySum (x0 x1 x2 x3 : X) (i : S16384x1024.Idx) :
    val_main_v5 (F := Ideal) x0 x1 x2 x3 i = x0 i + x1 i + x2 i + x3 i := by
  rw [val_main_v5_apply, Fin.sum_univ_four]
  show Ideal.ofBits .f32 0x00000000#32 + _ = _
  rw [Ideal.ofBits_zero_f32, zero_add,
    stack0 x0 x1 x2 x3 (idx_main_v5 i 0) rfl i rfl rfl, stack1 x0 x1 x2 x3 (idx_main_v5 i 1) rfl i rfl rfl,
    stack2 x0 x1 x2 x3 (idx_main_v5 i 2) rfl i rfl rfl, stack3 x0 x1 x2 x3 (idx_main_v5 i 3) rfl i rfl rfl]

/-! ## The integer count of a row -/

/-- The table's comparison with zero, widened to 32 bits, at an entry whose row sum is `s`: the word `isZero s`. -/
theorem bitAt (x0 x1 x2 x3 : X) (j : S4x16384.Idx) (s : EReal) (hs : val_main_v6 (F := Ideal) x0 x1 x2 x3 j = s) :
    val_main_v9 (F := Ideal) x0 x1 x2 x3 j = BitVec.ofNat 32 (isZero s) := by
  rw [val_main_v9_apply, val_main_v8_apply, hs, val_main_v7_apply]
  exact eqZero_word s

/-- The bits of row `r` of the four arrays added as 32-bit integers from zero: the number of vanishing row sums, as a word. -/
theorem count_apply (x0 x1 x2 x3 : X) (r : Fin 16384) :
    val_main_v10 (F := Ideal) x0 x1 x2 x3 (ix1 r)
      = BitVec.ofNat 32 (isZero (rowSum x0 r) + isZero (rowSum x1 r) + isZero (rowSum x2 r) + isZero (rowSum x3 r)) := by
  unfold val_main_v10
  rw [Host.reduce_eq_fold_single IntOp.addi _ _ reducesTo_S4x16384_S16384_d0 (by decide) h_S_ (ix1 r)]
  refine (fold_addi_fin4 _ _).trans ?_
  have l : ∀ a : Fin 4, (by decide : S4x16384.Reduces [0] S16384).lift (ix1 r) a = ix2 a r := fun a =>
    funext fun d => Fin.ext (by match d with | ⟨0, _⟩ => rfl | ⟨1, _⟩ => rfl)
  show val_main_c (F := Ideal) _ + (val_main_v9 (F := Ideal) x0 x1 x2 x3 _ + val_main_v9 (F := Ideal) x0 x1 x2 x3 _
    + val_main_v9 (F := Ideal) x0 x1 x2 x3 _ + val_main_v9 (F := Ideal) x0 x1 x2 x3 _) = _
  rw [l 0, l 1, l 2, l 3, bitAt x0 x1 x2 x3 _ _ (rowStage0 x0 x1 x2 x3 r), bitAt x0 x1 x2 x3 _ _ (rowStage1 x0 x1 x2 x3 r),
    bitAt x0 x1 x2 x3 _ _ (rowStage2 x0 x1 x2 x3 r), bitAt x0 x1 x2 x3 _ _ (rowStage3 x0 x1 x2 x3 r)]
  show 0#32 + _ = _
  rw [BitVec.zero_add, ← BitVec.ofNat_add, ← BitVec.ofNat_add, ← BitVec.ofNat_add]

/-! ## The reference's result is `G` -/

/-- THE REFERENCE IS `G`: its last stage, the product of the added entries with the row's factor broadcast along the row. -/
theorem ref_eq (x0 x1 x2 x3 : X) : val_main_v19 (F := Ideal) x0 x1 x2 x3 = G x0 x1 x2 x3 := by
  funext i
  rw [val_main_v19_apply, entrySum, val_main_v18_apply, val_main_v17_apply, val_main_v16_apply, val_main_v12_apply,
    val_main_v15_apply, val_main_v14_apply, val_main_v11_apply, val_main_v13_apply, val_main_call0_v0_apply]
  have ei : idx_main_v17 (idx_main_v18 i) = ix1 (⟨(i 0).val, (i 0).isLt⟩ : Fin 16384) := funext fun a => Fin.ext (by match a with | ⟨0, _⟩ => rfl)
  rw [ei, count_apply]
  exact congrArg (fun s => (x0 i + x1 i + x2 i + x3 i) * s) (intCount_scale _ _ _ _ _ rfl)

end Cert.Fusion.Ref

end
-- ==== Proof.lean ====
/-
  The certificate of a four-modality fusion kernel against its jnp reference, over the extended reals.

  THE CLAIM. Both programs take four 16384 x 1024 arrays. For a row `r`, count how many of the four arrays have a row sum
  that is exactly zero; the row's factor is that count plus one. The result at `(r, j)` is the four arrays' entries at
  `(r, j)` added, times the factor of row `r` (`Cert.Fusion.G`, Proof/FusionSpec.lean).

  THE KERNEL walks 32 row blocks of 512 rows; in a block it adds the four loaded blocks, sums each block's rows over the
  whole feature axis (which lies inside the block), forms the count in floats as a sum of four `0.0`/`1.0` indicators,
  and multiplies by `where(count > 0, count + 1, 1)`. THE REFERENCE stacks the four arrays, sums the stack both ways,
  forms the count in 32-bit integers, and multiplies by `where(count > 0, float(count + 1), 1.0)`. Both factors are the
  natural number `count + 1` read as a real (`where(n > 0, n + 1, 1) = n + 1` for every natural `n`; a count of at most
  four neither wraps a 32-bit integer nor leaves the integers a float adds exactly), and the four entries are added in
  the same order up to the reference's leading zero, so the two results are one function of the arguments, index by index.
  Only `0 + x = x` and the commutative-monoid laws of `+` on the extended reals are used: the precondition that the inputs
  are finite is never opened.

  THE PARTS. Proof/KernelPoint.lean: what the body leaves at a block index is `G` at the array index under it.
  Proof/KernelArray.lean: the 32 blocks tile the array, so the kernel's run ends with the result array at `G` of the
  arguments. Proof/RefStages.lean: the reference's stages chained, its last one being `G` of the arguments. Here: the
  three frames (the two kernels' are the generated frame runs; the reference's is its run with the result dropped), the
  idealization (the ideal pass rewrote nothing, so there is nothing to preserve), and the two runs set side by side.
-/
import proofs.«181110_j63462436765886_2_alg».proof.Defs
import proofs.«181110_j63462436765886_2_alg».proof.Proof.Gen.Kernel
import proofs.«181110_j63462436765886_2_alg».proof.Proof.Gen.Kernel.Frame
import proofs.«181110_j63462436765886_2_alg».proof.Proof.Gen.KernelIdeal
import proofs.«181110_j63462436765886_2_alg».proof.Proof.Gen.KernelIdeal.Frame
import proofs.«181110_j63462436765886_2_alg».proof.Proof.Gen.ReferenceIdeal
import proofs.«181110_j63462436765886_2_alg».proof.Proof.Gen.Pre_finite_inputs
import proofs.«181110_j63462436765886_2_alg».proof.Proof.KernelArray
import proofs.«181110_j63462436765886_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel terminates, faults nowhere, and leaves its arguments as they were. -/
theorem frame_k : Cert.frame_Kernel :=
  fun m ρ _ => Cert.Kernel.Gen.frame m ρ

/-- So does the kernel read at the ideal values. -/
theorem frame_ki : Cert.frame_KernelIdeal :=
  fun m ρ _ => Cert.KernelIdeal.Gen.frame m ρ

/-- The reference is a straight line of host operations: its run, with what it says of the result dropped. -/
theorem frame_ri : Cert.frame_ReferenceIdeal :=
  fun m ρ _ => (θ_run Cert.ReferenceIdeal.defs _ _).mono (fun _ h c => (h c).2)
    (Cert.ReferenceIdeal.RunP.run (F := Ideal) m ρ)

/-- The ideal pass rewrote no operation of this kernel: its idealization is its own text read at the ideal values. -/
theorem preserves : Cert.preserves_Kernel_KernelIdeal := trivial

/-- From memories that agree on the four arguments both programs end with the result array at `G` of the arguments:
    the kernel by its run block by block, the reference by its stages; rewriting the reference's arguments by the
    agreement makes the two posts one. -/
theorem algebraic : Cert.algebraic_KernelIdeal_ReferenceIdeal := by
  intro m ρ m' ρ' _ hagree
  refine ⟨_, Cert.Fusion.Kernel.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v19_eq, Cert.Fusion.Ref.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
